-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16 : Shape := ⟨1, ![16]⟩
abbrev S16x8192x2048 : Shape := ⟨3, ![16, 8192, 2048]⟩
abbrev S16x8192 : Shape := ⟨2, ![16, 8192]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x8192x2048 : S_.BroadcastsInDim S16x8192x2048 (![] : Fin 0 → Fin S16x8192x2048.rank)
  reducesTo_S16x8192x2048_S_d0_1_2 : S16x8192x2048.ReducesTo [0, 1, 2] S_
  bcast_S_S16x8192 : S_.BroadcastsInDim S16x8192 (![] : Fin 0 → Fin S16x8192.rank)
  reducesTo_S16x8192_S_d0_1 : S16x8192.ReducesTo [0, 1] S_

variable [Facts]

def fn {F : FTy → Type} [FloatOps F] (main_arg0 : FVec F S16384x2048 .f32) (main_arg1 : IVec S16 32) (main_arg2 : FVec F S16x8192x2048 .f32) (main_arg3 : FVec F S16x8192 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x8192x2048 .f32 := Host.absf main_arg2
  let main_cst_0 : FVec F S_ .f32 := constant S_ .f32 0x7F800000#32
  let main_v5 : FVec F S16x8192x2048 .f32 := broadcastInDim S16x8192x2048 ![] bcast_S_S16x8192x2048 main_cst_0
  let main_v6 : IVec S16x8192x2048 1 := cmpf .olt main_v4 main_v5
  let main_c_1 : IVec S_ 1 := constantI S_ 1 1#1
  let main_v7 : IVec S_ 1 := (fun x v => Host.reduce IntOp.andi x v reducesTo_S16x8192x2048_S_d0_1_2 h_S_) main_v6 main_c_1
  let main_v8 : IVec S_ 1 := andi main_v3 main_v7
  let main_v9 : FVec F S16x8192 .f32 := Host.absf main_arg3
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_c_3 : IVec S_ 1 := constantI S_ 1 1#1
  let main_v12 : IVec S_ 1 := (fun x v => Host.reduce IntOp.andi x v reducesTo_S16x8192_S_d0_1 h_S_) main_v11 main_c_3
  let main_v13 : IVec S_ 1 := andi main_v8 main_v12
  main_v13
-- ==== Kernel.lean ====
abbrev S16384x2048 : Shape := ⟨2, ![16384, 2048]⟩
abbrev S16 : Shape := ⟨1, ![16]⟩
abbrev S16x8192x2048 : Shape := ⟨3, ![16, 8192, 2048]⟩
abbrev S16x8192 : Shape := ⟨2, ![16, 8192]⟩
abbrev S16x1x8192 : Shape := ⟨3, ![16, 1, 8192]⟩
abbrev S16384x8192 : Shape := ⟨2, ![16384, 8192]⟩
abbrev S1024x2048 : Shape := ⟨2, ![1024, 2048]⟩
abbrev S1x512x2048 : Shape := ⟨3, ![1, 512, 2048]⟩
abbrev S1x1x512 : Shape := ⟨3, ![1, 1, 512]⟩
abbrev S1024x512 : Shape := ⟨2, ![1024, 512]⟩
abbrev S512x2048 : Shape := ⟨2, ![512, 2048]⟩
abbrev S1x512 : Shape := ⟨2, ![1, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16, .i32⟩
  | .hbm, ⟨2, _⟩ => ⟨S16x8192x2048, .f32⟩
  | .hbm, ⟨3, _⟩ => ⟨S16x8192, .f32⟩
  | .hbm, ⟨4, _⟩ => ⟨S16x1x8192, .f32⟩
  | .hbm, ⟨5, _⟩ => ⟨S16384x8192, .f32⟩
  | .local _ .vmem, ⟨0, _⟩ => ⟨S1024x2048, .f32⟩
  | .local _ .vmem, ⟨1, _⟩ => ⟨S1024x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1x512, .f32⟩
  | .local _ .vmem, ⟨5, _⟩ => ⟨S1x1x512, .f32⟩
  | .local _ .vmem, ⟨6, _⟩ => ⟨S1024x512, .f32⟩
  | .local _ .vmem, ⟨7, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x8192_S16x1x8192 : S16x8192.ShapeCasts S16x1x8192
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S16x8192x2048.size a
  hwx0_1 : ∀ i : grid0.Coords, EltTy.bits .f32 = 32 ∨ (Rect.block (s := S16x8192x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x8192.size a
  hwx0_2 : ∀ i : grid0.Coords, EltTy.bits .f32 = 32 ∨ (Rect.block (s := S16x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x8192.size a
  hwx0_3 : ∀ i : grid0.Coords, EltTy.bits .f32 = 32 ∨ (Rect.block (s := S16384x8192) S1024x512.size (cc0_transform_3 i) (hinb0_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16 : Shape := ⟨1, ![16]⟩
abbrev S16x8192x2048 : Shape := ⟨3, ![16, 8192, 2048]⟩
abbrev S16x8192 : Shape := ⟨2, ![16, 8192]⟩
abbrev S16x1024x2048 : Shape := ⟨3, ![16, 1024, 2048]⟩
abbrev S16x1024x8192 : Shape := ⟨3, ![16, 1024, 8192]⟩
abbrev S16x1x8192 : Shape := ⟨3, ![16, 1, 8192]⟩
abbrev S16384x8192 : Shape := ⟨2, ![16384, 8192]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16, .i32⟩
  | .hbm, ⟨2, _⟩ => ⟨S16x8192x2048, .f32⟩
  | .hbm, ⟨3, _⟩ => ⟨S16x8192, .f32⟩
  | .hbm, ⟨4, _⟩ => ⟨S16x1024x2048, .f32⟩
  | .hbm, ⟨5, _⟩ => ⟨S16x1024x8192, .f32⟩
  | .hbm, ⟨6, _⟩ => ⟨S16x1x8192, .f32⟩
  | .hbm, ⟨7, _⟩ => ⟨S16x1024x8192, .f32⟩
  | .hbm, ⟨8, _⟩ => ⟨S16x1024x8192, .f32⟩
  | .hbm, ⟨9, _⟩ => ⟨S16384x8192, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S16384x2048_S16x1024x2048 : S16384x2048.ShapeCasts S16x1024x2048
  bcast_S16x8192_S16x1x8192_0_2 : S16x8192.BroadcastsInDim S16x1x8192 (![0, 2] : Fin 2 → Fin S16x1x8192.rank)
  bcast_S16x1x8192_S16x1024x8192_0_1_2 : S16x1x8192.BroadcastsInDim S16x1024x8192 (![0, 1, 2] : Fin 3 → Fin S16x1024x8192.rank)
  shapeCasts_S16x1024x8192_S16384x8192 : S16x1024x8192.ShapeCasts S16384x8192
  dot_S16x1024x2048_S16x8192x2048_S16x1024x8192_2_2_1_1_0_0_wf : DotDims.WF S16x1024x2048 S16x8192x2048 S16x1024x8192 [2] [2] [1] [1] [0] [0]

variable [Facts₀]

def dot_S16x1024x2048_S16x8192x2048_S16x1024x8192_2_2_1_1_0_0 : DotDims S16x1024x2048 S16x8192x2048 S16x1024x8192 where
  lhsContracting := [2]
  rhsContracting := [2]
  lhsNonContracting := [1]
  rhsNonContracting := [1]
  lhsBatch := [0]
  rhsBatch := [0]
  wf := dot_S16x1024x2048_S16x8192x2048_S16x1024x8192_2_2_1_1_0_0_wf

class Facts : Prop extends Facts₀ where

variable [Facts]
-- ==== Proof.GroupedLinear.lean ====
/-
  The grouped linear layer as one function of its three arrays, entry by entry over the extended reals.
  The 16384 token rows are split into 16 consecutive groups of 1024; row `r` belongs to group `r / 1024`, and
  its output entry at feature `o` is the inner product of the row with that group's weight row `o`, plus that
  group's bias at `o`:
      out (r, o) = (∑ k, x (r, k) · w (r / 1024, o, k)) + b (r / 1024, o).
-/
import Idealize.ShloMosaic.PureOps.Ideal
import Idealize.ShloMosaic.Lib.ValueIdx

open scoped BigOperators

noncomputable section

namespace Cert.GroupedLinear

open Idealize.ShloMosaic Idealize.ShloMosaic.ValueIdx

/-- The group (expert) a token row belongs to: rows are grouped 1024 at a time. -/
def groupOf (r : Fin 16384) : Fin 16 := ⟨r.val / 1024, by have := r.isLt; omega⟩

theorem groupOf_val (r : Fin 16384) : (groupOf r).val = r.val / 1024 := rfl

/-- One output entry: row `r` against weight row `o` of the row's group, plus the group's bias at `o`. -/
def entry (x : FVec Ideal ⟨2, ![16384, 2048]⟩ .f32) (w : FVec Ideal ⟨3, ![16, 8192, 2048]⟩ .f32)
    (b : FVec Ideal ⟨2, ![16, 8192]⟩ .f32) (r : Fin 16384) (o : Fin 8192) : EReal :=
  (∑ k : Fin 2048, x (ix2 r k) * w (ix3 (groupOf r) o k)) + b (ix2 (groupOf r) o)

/-- The whole output array. -/
def out (x : FVec Ideal ⟨2, ![16384, 2048]⟩ .f32) (w : FVec Ideal ⟨3, ![16, 8192, 2048]⟩ .f32)
    (b : FVec Ideal ⟨2, ![16, 8192]⟩ .f32) : FVec Ideal ⟨2, ![16384, 8192]⟩ .f32 :=
  fun i => entry x w b (i 0) (i 1)

theorem out_apply (x : FVec Ideal ⟨2, ![16384, 2048]⟩ .f32) (w : FVec Ideal ⟨3, ![16, 8192, 2048]⟩ .f32)
    (b : FVec Ideal ⟨2, ![16, 8192]⟩ .f32) (i : (⟨2, ![16384, 8192]⟩ : Shape).Idx) :
    out x w b i = entry x w b (i 0) (i 1) := rfl

end Cert.GroupedLinear

end
-- ==== Proof.ReferenceEntry.lean ====
/-
  The reference program's result, read entry by entry, is the grouped linear layer.
  The reference views the 16384 token rows as 16 groups of 1024 rows, contracts each row of a group with each weight
  row of that group over the 2048 features, adds the group's bias row, and flattens the groups back. Flattening sends
  the entry at group `e`, row-in-group `t`, feature `o` to row `e · 1024 + t`; read backwards, row `r` is group
  `r / 1024`, row-in-group `r % 1024`, so the viewed input at `(r / 1024, r % 1024, k)` is the input at `(r, k)`.
-/
import proofs.«172770_j2834678415366_2_alg».proof.Proof.Gen.ReferenceIdeal.Read
import proofs.«172770_j2834678415366_2_alg».proof.Proof.GroupedLinear

open scoped BigOperators

noncomputable section

namespace Cert.ReferenceIdeal.Entry

open Cert.ReferenceIdeal Cert.ReferenceIdeal.Read Idealize.ShloMosaic Idealize.ShloMosaic.ValueIdx Cert.GroupedLinear

/-- The viewed input row of output row `i 0`, feature `k`, is the input's row `i 0` itself. -/
theorem input_index (i : S16384x8192.Idx) (k : Fin 2048) :
    idx_main_v0 (lidx_main_v1 (idx_main_v5 i) k) = ix2 (i 0) k := by
  have h0 : (i 0).val < 16384 := (i 0).isLt
  have h1 : (i 1).val < 8192 := (i 1).isLt
  have hk : k.val < 2048 := k.isLt
  funext a; apply Fin.ext
  match a with
  | ⟨0, _⟩ =>
    show ((((i 0).val * 8192 + (i 1).val) / 8388608 * 1024 + ((i 0).val * 8192 + (i 1).val) / 8192 % 1024) * 2048 + k.val) / 2048 = (i 0).val
    omega
  | ⟨1, _⟩ =>
    show ((((i 0).val * 8192 + (i 1).val) / 8388608 * 1024 + ((i 0).val * 8192 + (i 1).val) / 8192 % 1024) * 2048 + k.val) % 2048 = k.val
    omega

/-- The weight entry met by output entry `i` at feature `k`: the row's group, weight row `i 1`, feature `k`. -/
theorem weight_index (i : S16384x8192.Idx) (k : Fin 2048) :
    ridx_main_v1 (idx_main_v5 i) k = ix3 (groupOf (i 0)) (i 1) k := by
  have h0 : (i 0).val < 16384 := (i 0).isLt
  have h1 : (i 1).val < 8192 := (i 1).isLt
  funext a; apply Fin.ext
  match a with
  | ⟨0, _⟩ =>
    show ((i 0).val * 8192 + (i 1).val) / 8388608 = (i 0).val / 1024
    omega
  | ⟨1, _⟩ =>
    show ((i 0).val * 8192 + (i 1).val) % 8192 = (i 1).val
    omega
  | ⟨2, _⟩ => rfl

/-- The bias entry added to output entry `i`: the row's group, feature `i 1`. -/
theorem bias_index (i : S16384x8192.Idx) :
    idx_main_v2 (idx_main_v3 (idx_main_v5 i)) = ix2 (groupOf (i 0)) (i 1) := by
  have h0 : (i 0).val < 16384 := (i 0).isLt
  have h1 : (i 1).val < 8192 := (i 1).isLt
  funext a; apply Fin.ext
  match a with
  | ⟨0, _⟩ =>
    show ((i 0).val * 8192 + (i 1).val) / 8388608 = (i 0).val / 1024
    omega
  | ⟨1, _⟩ =>
    show ((i 0).val * 8192 + (i 1).val) % 8192 = (i 1).val
    omega

/-- The reference's last stage is the grouped linear layer of the three float arguments. -/
theorem result_eq (x0 : FVec Ideal S16384x2048 .f32) (x2 : FVec Ideal S16x8192x2048 .f32) (x3 : FVec Ideal S16x8192 .f32) :
    val_main_v5 (F := Ideal) x0 x2 x3 = out x0 x2 x3 := by
  funext i
  rw [val_main_v5_apply, val_main_v4_apply, val_main_v1_apply, val_main_v3_apply, val_main_v2_apply, bias_index, out_apply]
  unfold entry
  simp only [val_main_v0_apply, input_index, weight_index, Ideal.addf_def]
  rfl

end Cert.ReferenceIdeal.Entry

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.BodyEntry.lean ====
/-
  One grid step of the kernel, read entry by entry over the extended reals.
  The step holds a block of 1024 token rows `X`, a block of 512 weight rows `W` (with a leading unit axis) and the 512
  matching bias entries `B` (with two leading unit axes). Changing the float format is the identity on the extended
  reals, so the step's result at `(p, q)` is the inner product of token row `p` with weight row `q` plus the bias at `q`:
      (∑ k, X (p, k) · W (0, q, k)) + B (0, 0, q).
-/
import proofs.«172770_j2834678415366_2_alg».proof.Proof.Gen.KernelIdeal.Skeleton
import proofs.«172770_j2834678415366_2_alg».proof.Proof.LibMatmulIdx
import Idealize.ShloMosaic.Lib.ValueLayout
import Idealize.ShloMosaic.Lib.Pipeline.Value

open scoped BigOperators

noncomputable section

namespace Cert.KernelIdeal.Body

open Cert.KernelIdeal Cert.KernelIdeal.Gen Idealize.ShloMosaic Idealize.ShloMosaic.ValueIdx

/-- The stored value of one grid step at `(p, q)`. -/
theorem step_apply (X : Vec Ideal S1024x2048 .f32) (W : Vec Ideal S1x512x2048 .f32) (B : Vec Ideal S1x1x512 .f32)
    (p : Fin 1024) (q : Fin 512) :
    k0_pay1 (F := Ideal) X W B (ix2 p q)
      = (∑ k : Fin 2048, X (ix2 p k) * W (ix3 (0 : Fin 1) q k)) + B (ix3 (0 : Fin 1) (0 : Fin 1) q) := by
  unfold k0_pay1
  rw [addf_apply]
  congr 1
  · refine (Cert.LibMatmulIdx.matmul_rr_apply (m := 1024) (k := 2048) (n := 512)
      Facts₀.dot_S1024x2048_S512x2048_S1024x512_1_1_0_0_n_n_wf none _ _ p q).trans ?_
    refine Finset.sum_congr rfl fun k _ => ?_
    rw [truncf_apply, truncf_apply, shapeCast_1ab_ab_apply]
  · rw [broadcastTo_1b_ab_apply, shapeCast_1ab_ab_apply]

end Cert.KernelIdeal.Body

end
-- ==== Proof.Blocks.lean ====
/-
  From grid steps to the whole output array.
  The grid has 256 steps; step `t` works on group `t / 16` and feature tile `t % 16`. It reads the group's 1024 token
  rows, the tile's 512 weight rows of that group and the tile's 512 bias entries of that group (the bias array being
  viewed with a unit middle axis), and writes back the 1024 × 512 output block at rows `(t / 16) · 1024 …`, columns
  `(t % 16) · 512 …`. Each written block is the matching block of the grouped linear layer, and the 256 blocks tile the
  output, so the output array ends as the grouped linear layer of the three float arguments.
-/
import proofs.«172770_j2834678415366_2_alg».proof.Proof.Gen.KernelIdeal.Value
import proofs.«172770_j2834678415366_2_alg».proof.Proof.GroupedLinear
import proofs.«172770_j2834678415366_2_alg».proof.Proof.BodyEntry
import Idealize.ShloMosaic.Lib.Pipeline.Value
import Idealize.ShloMosaic.Lib.StableHlo.Run
import Idealize.ShloMosaic.Lib.Tactic

open scoped BigOperators

noncomputable section

namespace Cert.KernelIdeal.Blocks

open Cert.KernelIdeal Cert.KernelIdeal.Gen Cert.KernelIdeal.Value Cert.KernelIdeal.Body Cert.GroupedLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- Step `t` is group `t / 16`, feature tile `t % 16`: every window's block index at `t`, decided over the 256 steps. -/
theorem block_indices : ∀ t : Fin cfg0.N,
    win0_0.index t (0 : Fin 2) = t.val / 16 ∧ win0_0.index t (1 : Fin 2) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = 0 ∧ win0_2.index t (2 : Fin 3) = t.val % 16
    ∧ win0_3.index t (0 : Fin 2) = t.val / 16 ∧ win0_3.index t (1 : Fin 2) = t.val % 16 :=
  (by decide +kernel : ∀ t : Fin grid0.N, _)

/-- The bias array as the grid finds it: the bias argument viewed with a unit middle axis. -/
theorem bias_view (c : Dev nD) :
    (V m c main_v0 : S16x1x8192.Idx → EReal)
      = shapeCast S16x1x8192 (m ((c : Thread nD τ).loc main_arg3)) Facts₀.shapeCasts_S16x8192_S16x1x8192 := by
  dsimp only [Gen.V, Gen.hostOps0]; after_results; rfl

/-- The viewed bias at `(e, 0, o)` is the bias at `(e, o)`. -/
theorem bias_view_apply (c : Dev nD) (e : Fin 16) (u : Fin 1) (o : Fin 8192) :
    (V m c main_v0 : S16x1x8192.Idx → EReal) (ix3 e u o) = (m ((c : Thread nD τ).loc main_arg3) : S16x8192.Idx → EReal) (ix2 e o) := by
  rw [bias_view]
  refine shapeCast_apply _ _ _ _ ?_
  show (S16x8192.rowMajor (ix2 e o)).val = (S16x1x8192.rowMajor (ix3 e u o)).val
  rw [Shape.rowMajor_val_two, Shape.rowMajor_val_three]
  have hu : u.val = 0 := by have := u.isLt; omega
  show e.val * 8192 + o.val = (e.val * 1 + u.val) * 8192 + o.val
  rw [hu]; omega

/-- The token block of step `t` at `(p, k)` is the input at row `(t / 16) · 1024 + p`, feature `k`. -/
theorem tokens_block (c : Dev nD) (t : Fin cfg0.N) (p : Fin 1024) (k : Fin 2048) (r : Fin 16384)
    (hr : r.val = t.val / 16 * 1024 + p.val) :
    (iblk m c 0 t : Vec Ideal S1024x2048 .f32) (ix2 p k)
      = (m ((c : Thread nD τ).loc main_arg0) : S16384x2048.Idx → EReal) (ix2 r k) := by
  obtain ⟨e0, e1, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; omega
  | ⟨1, _⟩ => show win0_0.index t (1 : Fin 2) * 2048 + 1 * k.val = k.val; omega

/-- The weight block of step `t` at `(0, q, k)` is the weight at group `t / 16`, row `(t % 16) · 512 + q`, feature `k`. -/
theorem weights_block (c : Dev nD) (t : Fin cfg0.N) (u : Fin 1) (q : Fin 512) (k : Fin 2048) (e : Fin 16) (o : Fin 8192)
    (he : e.val = t.val / 16) (ho : o.val = t.val % 16 * 512 + q.val) :
    (iblk m c 1 t : Vec Ideal S1x512x2048 .f32) (ix3 u q k)
      = (m ((c : Thread nD τ).loc main_arg2) : S16x8192x2048.Idx → EReal) (ix3 e o k) := by
  obtain ⟨-, -, e2, e3, e4, -⟩ := block_indices t
  have hu : u.val = 0 := by have := u.isLt; omega
  unfold iblk
  rw [View.read_apply]
  show V m c main_arg2 _ = _
  rw [V_main_arg2]
  refine congrArg _ (funext fun a => Fin.ext ?_)
  match a with
  | ⟨0, _⟩ => show win0_1.index t (0 : Fin 3) * 1 + 1 * u.val = e.val; omega
  | ⟨1, _⟩ => show win0_1.index t (1 : Fin 3) * 512 + 1 * q.val = o.val; omega
  | ⟨2, _⟩ => show win0_1.index t (2 : Fin 3) * 2048 + 1 * k.val = k.val; omega

/-- The bias block of step `t` at `(0, 0, q)` is the bias at group `t / 16`, feature `(t % 16) · 512 + q`. -/
theorem bias_block (c : Dev nD) (t : Fin cfg0.N) (u v : Fin 1) (q : Fin 512) (e : Fin 16) (o : Fin 8192)
    (he : e.val = t.val / 16) (ho : o.val = t.val % 16 * 512 + q.val) :
    (iblk m c 2 t : Vec Ideal S1x1x512 .f32) (ix3 u v q)
      = (m ((c : Thread nD τ).loc main_arg3) : S16x8192.Idx → EReal) (ix2 e o) := by
  obtain ⟨-, -, -, -, -, e5, e6, e7, -⟩ := block_indices t
  have hu : u.val = 0 := by have := u.isLt; omega
  have hv : v.val = 0 := by have := v.isLt; omega
  refine Eq.trans ?_ (bias_view_apply m c e (0 : Fin 1) o)
  unfold iblk
  rw [View.read_apply]
  show V m c main_v0 _ = V m c main_v0 _
  refine congrArg _ (funext fun a => Fin.ext ?_)
  match a with
  | ⟨0, _⟩ => show win0_2.index t (0 : Fin 3) * 1 + 1 * u.val = e.val; omega
  | ⟨1, _⟩ => show win0_2.index t (1 : Fin 3) * 1 + 1 * v.val = 0; omega
  | ⟨2, _⟩ => show win0_2.index t (2 : Fin 3) * 512 + 1 * q.val = o.val; omega

/-- What step `t` writes back is its block of the grouped linear layer of the three float arguments. -/
theorem flushed_eq (c : Dev nD) (t : Fin cfg0.N) :
    (dats m 0 c).flushed 3 t = ((cfg0.win 3).blk t).view.read (Elt Ideal)
      (out (m ((c : Thread nD τ).loc main_arg0)) (m ((c : Thread nD τ).loc main_arg2)) (m ((c : Thread nD τ).loc main_arg3))) := by
  rw [Value.flushed3]
  unfold out0_3
  rw [View.canon_unit_zero zero2]
  simp only [View.ld_unit_zero (S := S1024x2048) zero2, View.ld_unit_zero (S := S1x512x2048) zero3,
    View.ld_unit_zero (S := S1x1x512) zero3]
  obtain ⟨-, -, -, -, -, -, -, -, e8, e9⟩ := block_indices t
  funext j
  obtain ⟨p, q, rfl⟩ : ∃ (p : Fin 1024) (q : Fin 512), j = ix2 p q := ⟨j 0, j 1, eq_ix2 j⟩
  show k0_pay1 (F := Ideal) (iblk m c 0 t) (iblk m c 1 t) (iblk m c 2 t) (ix2 p q)
    = out _ _ _ (((cfg0.win 3).blk t).view.emb (ix2 p q))
  refine (step_apply (iblk m c 0 t) (iblk m c 1 t) (iblk m c 2 t) p q).trans ?_
  rw [out_apply]
  unfold entry
  have hr : ((((cfg0.win 3).blk t).view.emb (ix2 p q)) 0).val = t.val / 16 * 1024 + p.val := by
    show win0_3.index t (0 : Fin 2) * 1024 + 1 * p.val = _
    omega
  have ho : ((((cfg0.win 3).blk t).view.emb (ix2 p q)) 1).val = t.val % 16 * 512 + q.val := by
    show win0_3.index t (1 : Fin 2) * 512 + 1 * q.val = _
    omega
  have hg : (groupOf ((((cfg0.win 3).blk t).view.emb (ix2 p q)) 0)).val = t.val / 16 := by
    have hp : p.val < 1024 := p.isLt
    show ((((cfg0.win 3).blk t).view.emb (ix2 p q)) 0).val / 1024 = t.val / 16
    rw [hr]; omega
  refine congrArg₂ (· + ·) (Finset.sum_congr rfl fun k _ => congrArg₂ (· * ·) ?_ ?_) ?_
  · exact tokens_block m c t p k _ hr
  · exact weights_block m c t 0 q k _ _ hg ho
  · exact bias_block m c t 0 0 q _ _ hg ho

/-- An output index lies in step `t`'s block exactly when each coordinate lies in the block's range. -/
theorem mem_block (t : Fin cfg0.N) (i : S16384x8192.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v1).slice (win0_3.rect t)).set ↔ _
  rw [View.set_slice_whole, Rect.mem_set_unit]
  exact Iff.rfl

/-- The blocks tile the output: entry `(r, o)` lies in the block of step `(r / 1024) · 16 + o / 512`. -/
theorem covered (i : S16384x8192.Idx) :
    ∃ t : Fin cfg0.N, (cfg0.win 3).flush t = true ∧ i ∈ ((cfg0.win 3).blk t).view.set := by
  have h0 : (i 0).val < 16384 := (i 0).isLt
  have h1 : (i 1).val < 8192 := (i 1).isLt
  have hN : cfg0.N = 256 := N_0
  obtain ⟨t, tv⟩ : ∃ t : Fin cfg0.N, t.val = (i 0).val / 1024 * 16 + (i 1).val / 512 :=
    ⟨⟨(i 0).val / 1024 * 16 + (i 1).val / 512, by rw [hN]; omega⟩, rfl⟩
  obtain ⟨-, -, -, -, -, -, -, -, e8, e9⟩ := block_indices t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- The output array after the run is the grouped linear layer of the three float arguments. -/
theorem final (c : Dev nD) : (dats m 0 c).arrAt 3 cfg0.N
    = out (m ((c : Thread nD τ).loc main_arg0)) (m ((c : Thread nD τ).loc main_arg2)) (m ((c : Thread nD τ).loc main_arg3)) :=
  (dats m 0 c).arrAt_eq_of_cover 3 _ (fun t _ => flushed_eq m c t) covered

/-- The kernel's run: every fair execution ends with the result array at the grouped linear layer of the arguments as
    launched, and the arguments unchanged. -/
theorem run : θ_run defs (onTc (τ := τ) (main (F := Ideal))) ⟨m, fun _ => 0, ρ⟩ fun r => ∀ c : Dev nD,
      r.2.mem ((c : Thread nD τ).loc main_v1)
        = out (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.lean ====
/-
  A grouped linear layer: 16384 token rows in 16 consecutive groups of 1024, each group with its own 8192 × 2048 weight
  matrix and its own bias row. Over the extended reals the output entry at row `r`, feature `o` is
      (∑ k, x (r, k) · w (r / 1024, o, k)) + b (r / 1024, o).
  The kernel walks a 16 × 16 grid, one group and one tile of 512 output features per step, forming the 1024 × 512 product
  of the group's rows with the tile's weight rows (both contracted on the feature axis) and adding the tile's bias entries;
  its blocks tile the output (Proof/BodyEntry.lean, Proof/Blocks.lean). The reference views the rows as 16 × 1024,
  contracts group by group, adds the broadcast bias and flattens back (Proof/ReferenceEntry.lean). Both are the same
  sum over the same 2048 features in the same order, so no finiteness of the inputs is used. The kernel's change of float
  format on the way into the product is the identity on the extended reals, and the idealization rewrote nothing, so
  the word-level kernel's relation to its idealization has nothing to state.
-/
import proofs.«172770_j2834678415366_2_alg».proof.Defs
import proofs.«172770_j2834678415366_2_alg».proof.Proof.Gen.Kernel
import proofs.«172770_j2834678415366_2_alg».proof.Proof.Gen.Kernel.Skeleton
import proofs.«172770_j2834678415366_2_alg».proof.Proof.Gen.Kernel.Launch
import proofs.«172770_j2834678415366_2_alg».proof.Proof.Gen.Kernel.Points
import proofs.«172770_j2834678415366_2_alg».proof.Proof.Gen.Kernel.Frame
import proofs.«172770_j2834678415366_2_alg».proof.Proof.Gen.KernelIdeal
import proofs.«172770_j2834678415366_2_alg».proof.Proof.Gen.KernelIdeal.Skeleton
import proofs.«172770_j2834678415366_2_alg».proof.Proof.Gen.KernelIdeal.Launch
import proofs.«172770_j2834678415366_2_alg».proof.Proof.Gen.KernelIdeal.Points
import proofs.«172770_j2834678415366_2_alg».proof.Proof.Gen.KernelIdeal.Frame
import proofs.«172770_j2834678415366_2_alg».proof.Proof.Gen.ReferenceIdeal
import proofs.«172770_j2834678415366_2_alg».proof.Proof.Gen.Pre_finite_inputs
import proofs.«172770_j2834678415366_2_alg».proof.Proof.Gen.KernelIdeal.Value
import proofs.«172770_j2834678415366_2_alg».proof.Proof.Gen.ReferenceIdeal.Run
import proofs.«172770_j2834678415366_2_alg».proof.Proof.Gen.ReferenceIdeal.Read
import proofs.«172770_j2834678415366_2_alg».proof.Proof.GroupedLinear
import proofs.«172770_j2834678415366_2_alg».proof.Proof.ReferenceEntry
import proofs.«172770_j2834678415366_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array and the reference's both end at the grouped
    linear layer of the three float arguments. -/
theorem algebraic : Cert.algebraic_KernelIdeal_ReferenceIdeal := by
  intro m ρ m' ρ' _ hagree
  refine ⟨fun c => Cert.GroupedLinear.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.Entry.result_eq,
    (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
